-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S1x128 : Shape := ⟨2, ![1, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_arg13 : FVec F S1x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S1x128 .f32 := Host.absf main_arg13
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  main_v58

def fn_part2 {F : FTy → Type} [FloatOps F] (main_arg9 : FVec F S128x128 .f32) (main_arg10 : FVec F S1x128 .f32) (main_arg11 : FVec F S128x128 .f32) (main_arg12 : FVec F S128x128 .f32) (main_arg13 : FVec F S1x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S128x128 .f32) (main_arg7 : FVec F S1x128 .f32) (main_arg8 : FVec F S128x128 .f32) (main_arg9 : FVec F S128x128 .f32) (main_arg10 : FVec F S1x128 .f32) (main_arg11 : FVec F S128x128 .f32) (main_arg12 : FVec F S128x128 .f32) (main_arg13 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : FVec F S100000x128 .f32) (main_arg2 : FVec F S100000x128 .f32) (main_arg3 : IVec S1600000 32) (main_arg4 : IVec S1600000 32) (main_arg5 : FVec F S128x128 .f32) (main_arg6 : FVec F S128x128 .f32) (main_arg7 : FVec F S1x128 .f32) (main_arg8 : FVec F S128x128 .f32) (main_arg9 : FVec F S128x128 .f32) (main_arg10 : FVec F S1x128 .f32) (main_arg11 : FVec F S128x128 .f32) (main_arg12 : FVec F S128x128 .f32) (main_arg13 : FVec F S1x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩

abbrev nBuf : Space → Nat
  | .hbm => 42
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S2000x128 : S1x128.Broadcasts S2000x128
  shapeCasts_S2000x128_S2000x128 : S2000x128.ShapeCasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg2) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S1x128, .f32⟩
  | .hbm, ⟨8, _⟩ => ⟨S128x128, .f32⟩
  | .hbm, ⟨9, _⟩ => ⟨S128x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S1600000x128, .f32⟩
  | .hbm, ⟨70, _⟩ => ⟨S1600000x128, .f32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S1600000x128_S128x128_S1600000x128_1_0_0_1_n_n_wf : DotDims.WF S1600000x128 S128x128 S1600000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf

class Facts : Prop extends Facts₀ where

variable [Facts]
-- ==== Proof.KernelRun.lean ====
/-
  The idealized kernel's run with its result named.

  The program is four segments: host operations, the reset kernel's region, host operations, the update kernel's
  region. Every weakly fair execution terminates without a fault, and at the end every buffer the TensorCore does
  not scope holds the contents the last segment boundary gives it. Read at the arguments this is the frame (they end
  as launched); read at the result buffer it says the result is the contents at the last boundary — the update
  region's output array as its write-backs leave it.
-/
import proofs.«159449_j30382598652169_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    of the last segment boundary and the arguments as launched. -/
theorem run_boundary : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.RunValue

end
-- ==== Proof.HostValues.lean ====
/-
  What the two kernels' regions find in the buffers they read, as functions of the program's arguments.

  Before the first region the host gathers the state rows of every edge's source node and sums them per
  destination node: the neighbour sum `s`. Between the regions it does the same with the first region's output.
  An edge's source index is read with negative values counted from the end (`srcCol`); `rowsAt` selects those rows
  of a node array, `segSum` adds edge rows into their destination nodes from zero. No host operation writes an
  argument, and neither region writes an array it only reads, so every argument is found as launched.
-/
import proofs.«159449_j30382598652169_2_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- The edges' source index as a column, a negative index counted from the end of the 100000 nodes. -/
def srcCol (x3 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt x3 (broadcastInDim S1600000 ![] bcast_S_S1600000 (constantI S_ 32 0#32)))
      (addi x3 (broadcastInDim S1600000 ![] bcast_S_S1600000 (constantI S_ 32 100000#32))) x3)

/-- The rows of a node array at the edges' source nodes. -/
def rowsAt (x3 : (⟨S1600000, .i32⟩ : BufTy).Contents (Elt Ideal)) (t : (⟨S100000x128, .f32⟩ : BufTy).Contents (Elt Ideal)) :
    (⟨S1600000x128, .f32⟩ : BufTy).Contents (Elt Ideal) :=
  Host.gather gather_S100000x128_S1600000x1_S1600000x128_1_0_n_n_0_1_1128 t (srcCol x3)

/-- Edge rows summed into their destination nodes, from zero. -/
def segSum (x4 : (⟨S1600000, .i32⟩ : BufTy).Contents (Elt Ideal)) (u : (⟨S1600000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x4) u

/-- The host's operations on an index pair and a node array, as printed, are `segSum` of `rowsAt`. -/
theorem segSum_rowsAt_spelt (a3 a4 : (⟨S1600000, .i32⟩ : BufTy).Contents (Elt Ideal))
    (t : (⟨S100000x128, .f32⟩ : BufTy).Contents (Elt Ideal)) :
    Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 a4)
        (Host.gather gather_S100000x128_S1600000x1_S1600000x128_1_0_n_n_0_1_1128 t
          (broadcastInDim S1600000x1 ![0] bcast_S1600000_S1600000x1_0
            (select (cmpi .slt a3 (broadcastInDim S1600000 ![] bcast_S_S1600000 (constantI S_ 32 0#32)))
              (addi a3 (broadcastInDim S1600000 ![] bcast_S_S1600000 (constantI S_ 32 100000#32))) a3)))
      = segSum a4 (rowsAt a3 t) := rfl

variable (m : (ℓ : Loc nD τ sig) → Buf (Elt Ideal) ℓ) (ρ : Dev nD → PrngReg)

/-! ## The arguments at the first region's entry -/

theorem entry0_arg0 (c : Dev nD) : W1 m ρ c (Proc.devRef .tc main_arg0) = m ((c : Thread nD τ).loc main_arg0) := by
  show StableHlo.after hostOps0 (W0 m ρ c) (Proc.devRef .tc main_arg0) = _
  after_results
theorem entry0_arg1 (c : Dev nD) : W1 m ρ c (Proc.devRef .tc main_arg1) = m ((c : Thread nD τ).loc main_arg1) := by
  show StableHlo.after hostOps0 (W0 m ρ c) (Proc.devRef .tc main_arg1) = _
  after_results
theorem entry0_arg2 (c : Dev nD) : W1 m ρ c (Proc.devRef .tc main_arg2) = m ((c : Thread nD τ).loc main_arg2) := by
  show StableHlo.after hostOps0 (W0 m ρ c) (Proc.devRef .tc main_arg2) = _
  after_results
theorem entry0_arg3 (c : Dev nD) : W1 m ρ c (Proc.devRef .tc main_arg3) = m ((c : Thread nD τ).loc main_arg3) := by
  show StableHlo.after hostOps0 (W0 m ρ c) (Proc.devRef .tc main_arg3) = _
  after_results
theorem entry0_arg4 (c : Dev nD) : W1 m ρ c (Proc.devRef .tc main_arg4) = m ((c : Thread nD τ).loc main_arg4) := by
  show StableHlo.after hostOps0 (W0 m ρ c) (Proc.devRef .tc main_arg4) = _
  after_results
theorem entry0_arg5 (c : Dev nD) : W1 m ρ c (Proc.devRef .tc main_arg5) = m ((c : Thread nD τ).loc main_arg5) := by
  show StableHlo.after hostOps0 (W0 m ρ c) (Proc.devRef .tc main_arg5) = _
  after_results
theorem entry0_arg6 (c : Dev nD) : W1 m ρ c (Proc.devRef .tc main_arg6) = m ((c : Thread nD τ).loc main_arg6) := by
  show StableHlo.after hostOps0 (W0 m ρ c) (Proc.devRef .tc main_arg6) = _
  after_results
theorem entry0_arg7 (c : Dev nD) : W1 m ρ c (Proc.devRef .tc main_arg7) = m ((c : Thread nD τ).loc main_arg7) := by
  show StableHlo.after hostOps0 (W0 m ρ c) (Proc.devRef .tc main_arg7) = _
  after_results
theorem entry0_arg8 (c : Dev nD) : W1 m ρ c (Proc.devRef .tc main_arg8) = m ((c : Thread nD τ).loc main_arg8) := by
  show StableHlo.after hostOps0 (W0 m ρ c) (Proc.devRef .tc main_arg8) = _
  after_results
theorem entry0_arg9 (c : Dev nD) : W1 m ρ c (Proc.devRef .tc main_arg9) = m ((c : Thread nD τ).loc main_arg9) := by
  show StableHlo.after hostOps0 (W0 m ρ c) (Proc.devRef .tc main_arg9) = _
  after_results
theorem entry0_arg10 (c : Dev nD) : W1 m ρ c (Proc.devRef .tc main_arg10) = m ((c : Thread nD τ).loc main_arg10) := by
  show StableHlo.after hostOps0 (W0 m ρ c) (Proc.devRef .tc main_arg10) = _
  after_results
theorem entry0_arg11 (c : Dev nD) : W1 m ρ c (Proc.devRef .tc main_arg11) = m ((c : Thread nD τ).loc main_arg11) := by
  show StableHlo.after hostOps0 (W0 m ρ c) (Proc.devRef .tc main_arg11) = _
  after_results
theorem entry0_arg12 (c : Dev nD) : W1 m ρ c (Proc.devRef .tc main_arg12) = m ((c : Thread nD τ).loc main_arg12) := by
  show StableHlo.after hostOps0 (W0 m ρ c) (Proc.devRef .tc main_arg12) = _
  after_results
theorem entry0_arg13 (c : Dev nD) : W1 m ρ c (Proc.devRef .tc main_arg13) = m ((c : Thread nD τ).loc main_arg13) := by
  show StableHlo.after hostOps0 (W0 m ρ c) (Proc.devRef .tc main_arg13) = _
  after_results

/-- The neighbour sum at the first region's entry. -/
theorem entry0_sum (c : Dev nD) :
    W1 m ρ c (Proc.devRef .tc main_v9) = segSum (m ((c : Thread nD τ).loc main_arg4)) (rowsAt (m ((c : Thread nD τ).loc main_arg3)) (m ((c : Thread nD τ).loc main_arg0))) := by
  show StableHlo.after hostOps0 (W0 m ρ c) (Proc.devRef .tc main_v9) = _
  after_results
  rfl

/-! ## The arguments the first region does not touch, at its exit -/

theorem exit0_arg1 (c : Dev nD) : W2 m ρ c (Proc.devRef .tc main_arg1) = m ((c : Thread nD τ).loc main_arg1) :=
  (W2_of_ne m ρ c main_arg1 (by decide)).trans (entry0_arg1 m ρ c)
theorem exit0_arg3 (c : Dev nD) : W2 m ρ c (Proc.devRef .tc main_arg3) = m ((c : Thread nD τ).loc main_arg3) :=
  (W2_of_ne m ρ c main_arg3 (by decide)).trans (entry0_arg3 m ρ c)
theorem exit0_arg4 (c : Dev nD) : W2 m ρ c (Proc.devRef .tc main_arg4) = m ((c : Thread nD τ).loc main_arg4) :=
  (W2_of_ne m ρ c main_arg4 (by decide)).trans (entry0_arg4 m ρ c)
theorem exit0_arg5 (c : Dev nD) : W2 m ρ c (Proc.devRef .tc main_arg5) = m ((c : Thread nD τ).loc main_arg5) :=
  (W2_of_ne m ρ c main_arg5 (by decide)).trans (entry0_arg5 m ρ c)
theorem exit0_arg6 (c : Dev nD) : W2 m ρ c (Proc.devRef .tc main_arg6) = m ((c : Thread nD τ).loc main_arg6) :=
  (W2_of_ne m ρ c main_arg6 (by decide)).trans (entry0_arg6 m ρ c)
theorem exit0_arg7 (c : Dev nD) : W2 m ρ c (Proc.devRef .tc main_arg7) = m ((c : Thread nD τ).loc main_arg7) :=
  (W2_of_ne m ρ c main_arg7 (by decide)).trans (entry0_arg7 m ρ c)
theorem exit0_arg11 (c : Dev nD) : W2 m ρ c (Proc.devRef .tc main_arg11) = m ((c : Thread nD τ).loc main_arg11) :=
  (W2_of_ne m ρ c main_arg11 (by decide)).trans (entry0_arg11 m ρ c)
theorem exit0_arg12 (c : Dev nD) : W2 m ρ c (Proc.devRef .tc main_arg12) = m ((c : Thread nD τ).loc main_arg12) :=
  (W2_of_ne m ρ c main_arg12 (by decide)).trans (entry0_arg12 m ρ c)
theorem exit0_arg13 (c : Dev nD) : W2 m ρ c (Proc.devRef .tc main_arg13) = m ((c : Thread nD τ).loc main_arg13) :=
  (W2_of_ne m ρ c main_arg13 (by decide)).trans (entry0_arg13 m ρ c)

/-- The neighbour sum is not an array of the first region: it passes through. -/
theorem exit0_sum (c : Dev nD) :
    W2 m ρ c (Proc.devRef .tc main_v9) = segSum (m ((c : Thread nD τ).loc main_arg4)) (rowsAt (m ((c : Thread nD τ).loc main_arg3)) (m ((c : Thread nD τ).loc main_arg0))) :=
  (W2_of_ne m ρ c main_v9 (by decide)).trans (entry0_sum m ρ c)

/-! ## At the second region's entry -/

theorem entry1_arg1 (c : Dev nD) : W3 m ρ c (Proc.devRef .tc main_arg1) = m ((c : Thread nD τ).loc main_arg1) := by
  show StableHlo.after hostOps1 (W2 m ρ c) (Proc.devRef .tc main_arg1) = _
  after_results
  exact exit0_arg1 m ρ c
theorem entry1_arg5 (c : Dev nD) : W3 m ρ c (Proc.devRef .tc main_arg5) = m ((c : Thread nD τ).loc main_arg5) := by
  show StableHlo.after hostOps1 (W2 m ρ c) (Proc.devRef .tc main_arg5) = _
  after_results
  exact exit0_arg5 m ρ c
theorem entry1_arg6 (c : Dev nD) : W3 m ρ c (Proc.devRef .tc main_arg6) = m ((c : Thread nD τ).loc main_arg6) := by
  show StableHlo.after hostOps1 (W2 m ρ c) (Proc.devRef .tc main_arg6) = _
  after_results
  exact exit0_arg6 m ρ c
theorem entry1_arg7 (c : Dev nD) : W3 m ρ c (Proc.devRef .tc main_arg7) = m ((c : Thread nD τ).loc main_arg7) := by
  show StableHlo.after hostOps1 (W2 m ρ c) (Proc.devRef .tc main_arg7) = _
  after_results
  exact exit0_arg7 m ρ c
theorem entry1_arg11 (c : Dev nD) : W3 m ρ c (Proc.devRef .tc main_arg11) = m ((c : Thread nD τ).loc main_arg11) := by
  show StableHlo.after hostOps1 (W2 m ρ c) (Proc.devRef .tc main_arg11) = _
  after_results
  exact exit0_arg11 m ρ c
theorem entry1_arg12 (c : Dev nD) : W3 m ρ c (Proc.devRef .tc main_arg12) = m ((c : Thread nD τ).loc main_arg12) := by
  show StableHlo.after hostOps1 (W2 m ρ c) (Proc.devRef .tc main_arg12) = _
  after_results
  exact exit0_arg12 m ρ c
theorem entry1_arg13 (c : Dev nD) : W3 m ρ c (Proc.devRef .tc main_arg13) = m ((c : Thread nD τ).loc main_arg13) := by
  show StableHlo.after hostOps1 (W2 m ρ c) (Proc.devRef .tc main_arg13) = _
  after_results
  exact exit0_arg13 m ρ c

theorem entry1_sum (c : Dev nD) :
    W3 m ρ c (Proc.devRef .tc main_v9) = segSum (m ((c : Thread nD τ).loc main_arg4)) (rowsAt (m ((c : Thread nD τ).loc main_arg3)) (m ((c : Thread nD τ).loc main_arg0))) := by
  show StableHlo.after hostOps1 (W2 m ρ c) (Proc.devRef .tc main_v9) = _
  after_results
  exact exit0_sum m ρ c

/-- The first region's output buffer at its exit is its output array as the write-backs leave it. -/
theorem exit0_gated (c : Dev nD) :
    W2 m ρ c (Proc.devRef .tc main_v10) = (dat0 (V1 m ρ) c).arrAt 5 cfg0.N :=
  W2_arr m ρ c 5

set_option maxHeartbeats 4000000 in
/-- The second sum: the first region's output array, its rows selected and summed like the states. -/
theorem entry1_gatedSum (c : Dev nD) :
    W3 m ρ c (Proc.devRef .tc main_v20)
      = segSum (m ((c : Thread nD τ).loc main_arg4)) (rowsAt (m ((c : Thread nD τ).loc main_arg3)) ((dat0 (V1 m ρ) c).arrAt 5 cfg0.N)) := by
  show StableHlo.after hostOps1 (W2 m ρ c) (Proc.devRef .tc main_v20) = _
  after_results
  refine (segSum_rowsAt_spelt _ _ _).trans ?_
  exact congrArg₂ segSum (exit0_arg4 m ρ c) (congrArg₂ rowsAt (exit0_arg3 m ρ c) (exit0_gated m ρ c))

/-- The result buffer at the last boundary is the second region's output array. -/
theorem boundary_result (c : Dev nD) :
    W4 m ρ c (Proc.devRef .tc main_v21) = (dat1 (V3 m ρ) c).arrAt 9 cfg1.N :=
  W4_arr m ρ c 9

end Cert.KernelIdeal.HostValue

end
-- ==== Proof.Spec.lean ====
/-
  The node update of a tree-structured gated recurrent cell, as functions of its argument arrays on the
  extended reals.

  Every node carries a state row `h` of 128 features. A gate's pre-activation at row `p`, feature `q` is
  `x[p,:]·wx[:,q] + y[p,:]·wy[:,q] + bias[0,q]`: two products against 128×128 weights and a bias row. The reset
  gate of a node is the logistic function of the pre-activation of its two feature rows, and `gated` is that gate
  times the node's state, entry by entry. The new state `blend` mixes the summed neighbour states `s` and a
  candidate `tanh` of a second pre-activation by the update gate `z`: `(1 - z)·s + z·tanh(…)`.

  Both functions are computed row by row: row `p` of the result reads only row `p` of the row-indexed operands.
  That is why they may be evaluated on any block of rows, and before or after rows are selected by an index.
-/
import Idealize.ShloMosaic.PureOps.Ideal
import Idealize.ShloMosaic.Lib.ValueIdx

noncomputable section

open scoped BigOperators

namespace Cert.TreeGru

open Idealize.ShloMosaic Idealize.ShloMosaic.ValueIdx

/-- `R` rows of 128 features. -/
abbrev Rows (R : Nat) : Shape := ⟨2, ![R, 128]⟩
/-- A 128×128 weight. -/
abbrev Sq : Shape := ⟨2, ![128, 128]⟩
/-- A bias row. -/
abbrev Bias : Shape := ⟨2, ![1, 128]⟩

/-- The float one, as both programs spell it. -/
abbrev one : EReal := Ideal.ofBits .f32 0x3F800000#32

/-- A gate's pre-activation at row `p`, feature `q`. -/
def pre {R : Nat} (x y : FVec Ideal (Rows R) .f32) (wx wy : FVec Ideal Sq .f32) (bias : FVec Ideal Bias .f32)
    (p : Fin R) (q : Fin 128) : EReal :=
  (∑ d : Fin 128, x (ix2 p d) * wx (ix2 d q)) + (∑ d : Fin 128, y (ix2 p d) * wy (ix2 d q)) + bias (ix2 0 q)

/-- The reset gate of the rows `x`, `y` times the state `y`. -/
def gated {R : Nat} (x y : FVec Ideal (Rows R) .f32) (wx wy : FVec Ideal Sq .f32) (bias : FVec Ideal Bias .f32) :
    FVec Ideal (Rows R) .f32 :=
  fun i => Ideal.logistic (pre x y wx wy bias (i 0) (i 1)) * y i

theorem gated_apply {R : Nat} (x y : FVec Ideal (Rows R) .f32) (wx wy : FVec Ideal Sq .f32)
    (bias : FVec Ideal Bias .f32) (p : Fin R) (q : Fin 128) :
    gated x y wx wy bias (ix2 p q) = Ideal.logistic (pre x y wx wy bias p q) * y (ix2 p q) := rfl

/-- The new state: the summed states `s` and the candidate `tanh (pre f g w u b)` mixed by the update gate
    `z = logistic (pre f s wz uz bz)`. -/
def blend {R : Nat} (f s g : FVec Ideal (Rows R) .f32) (wz uz : FVec Ideal Sq .f32) (bz : FVec Ideal Bias .f32)
    (w u : FVec Ideal Sq .f32) (b : FVec Ideal Bias .f32) : FVec Ideal (Rows R) .f32 :=
  fun i => (one - Ideal.logistic (pre f s wz uz bz (i 0) (i 1))) * s i
    + Ideal.logistic (pre f s wz uz bz (i 0) (i 1)) * Ideal.tanh (pre f g w u b (i 0) (i 1))

theorem blend_apply {R : Nat} (f s g : FVec Ideal (Rows R) .f32) (wz uz : FVec Ideal Sq .f32)
    (bz : FVec Ideal Bias .f32) (w u : FVec Ideal Sq .f32) (b : FVec Ideal Bias .f32) (p : Fin R) (q : Fin 128) :
    blend f s g wz uz bz w u b (ix2 p q)
      = (one - Ideal.logistic (pre f s wz uz bz p q)) * s (ix2 p q)
        + Ideal.logistic (pre f s wz uz bz p q) * Ideal.tanh (pre f g w u b p q) := rfl

/-- A pre-activation at `(p, q)` reads only row `p` of its row-indexed operands, column `q` of the weights and
    entry `q` of the bias: operands that agree there give the same value, whatever their numbers of rows. -/
theorem pre_congr {R R' : Nat} (x y : FVec Ideal (Rows R) .f32) (x' y' : FVec Ideal (Rows R') .f32)
    (wx wy wx' wy' : FVec Ideal Sq .f32) (bias bias' : FVec Ideal Bias .f32) (p : Fin R) (p' : Fin R') (q : Fin 128)
    (hx : ∀ d : Fin 128, x (ix2 p d) = x' (ix2 p' d)) (hy : ∀ d : Fin 128, y (ix2 p d) = y' (ix2 p' d))
    (hwx : ∀ d : Fin 128, wx (ix2 d q) = wx' (ix2 d q)) (hwy : ∀ d : Fin 128, wy (ix2 d q) = wy' (ix2 d q))
    (hb : bias (ix2 0 q) = bias' (ix2 0 q)) :
    pre x y wx wy bias p q = pre x' y' wx' wy' bias' p' q := by
  unfold pre
  have ex : (∑ d : Fin 128, x (ix2 p d) * wx (ix2 d q)) = ∑ d : Fin 128, x' (ix2 p' d) * wx' (ix2 d q) :=
    Finset.sum_congr rfl fun d _ => congrArg₂ (· * ·) (hx d) (hwx d)
  have ey : (∑ d : Fin 128, y (ix2 p d) * wy (ix2 d q)) = ∑ d : Fin 128, y' (ix2 p' d) * wy' (ix2 d q) :=
    Finset.sum_congr rfl fun d _ => congrArg₂ (· * ·) (hy d) (hwy d)
  rw [ex, ey, hb]

end Cert.TreeGru

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.Tile.lean ====
/-
  What each kernel body leaves in its output tile, as the specification's function of the input tiles.

  One grid point of either kernel holds 2000 rows. The reset kernel's tile is the reset gate of its two row tiles
  times the state tile (`TreeGru.gated` on 2000 rows); the update kernel's tile is the gated mix of the summed
  states and the candidate (`TreeGru.blend` on 2000 rows). A change of float format is the identity on the
  extended reals, and a product accumulated into the zero tile is the plain sum over the contracted coordinate.
-/
import proofs.«159449_j30382598652169_2_alg».proof.Proof.Gen.KernelIdeal.Frame
import proofs.«159449_j30382598652169_2_alg».proof.Proof.Spec
import proofs.«159449_j30382598652169_2_alg».proof.Proof.LibMatmulIdx
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen

/-- The zero offsets of a whole-tile access, as the constant function. -/
private theorem offsets_zero : (![0, 0] : Fin 2 → Nat) = fun _ => 0 := funext fun a => by fin_cases a <;> rfl

/-- Two products into zero tiles plus the bias row broadcast down the rows, read at an entry, are the
    pre-activation there: each product is the sum over the contracted coordinate, the narrowing of the operands is
    the identity on extended reals, and the broadcast bias reads its own entry of the one row. -/
private theorem pre_at (x y : Vec Ideal S2000x128 .f32) (wx wy : Vec Ideal S128x128 .f32) (b : Vec Ideal S1x128 .f32)
    (hb : FTy.bits .bf16 < FTy.bits .f32) (hbc : S1x128.Broadcasts S2000x128) (p : Fin 2000) (q : Fin 128) :
    addf (addf (matmul dot_S2000x128_S128x128_S2000x128_1_0_0_1_n_n none (truncf .bf16 x hb) (truncf .bf16 wx hb)
                  (constant (F := Ideal) S2000x128 .f32 0x00000000#32))
               (matmul dot_S2000x128_S128x128_S2000x128_1_0_0_1_n_n none (truncf .bf16 y hb) (truncf .bf16 wy hb)
                  (constant (F := Ideal) S2000x128 .f32 0x00000000#32)))
         (broadcastTo S2000x128 b hbc) (ix2 p q)
      = Cert.TreeGru.pre x y wx wy b p q := by
  unfold Cert.TreeGru.pre
  rw [addf_apply, addf_apply]
  refine congrArg₂ (· + ·) (congrArg₂ (· + ·) ?_ ?_) ?_
  · exact Cert.MatmulIdx.matmul_plain_zero_apply none (truncf .bf16 x hb) (truncf .bf16 wx hb) p q
  · exact Cert.MatmulIdx.matmul_plain_zero_apply none (truncf .bf16 y hb) (truncf .bf16 wy hb) p q
  · exact broadcastTo_1b_ab_apply b hbc p q

/-- The reset kernel's stored value at an entry: the logistic function of the pre-activation times the state. -/
private theorem reset_at (x0 x1 : Vec Ideal S2000x128 .f32) (x2 x3 : Vec Ideal S128x128 .f32) (x4 : Vec Ideal S1x128 .f32)
    (p : Fin 2000) (q : Fin 128) :
    Gen.k0_pay1 (F := Ideal) x0 x2 x1 x3 x4 x1 (ix2 p q)
      = Ideal.logistic (Cert.TreeGru.pre x0 x1 x2 x3 x4 p q) * x1 (ix2 p q) := by
  unfold Gen.k0_pay1
  exact congrArg₂ (· * ·) (congrArg Ideal.logistic (pre_at x0 x1 x2 x3 x4 _ _ p q)) rfl

/-- The update gate at an entry: the logistic function of its pre-activation (the cast of the summed states to
    their own shape is the identity). -/
private theorem gate_at (x0 x1 : Vec Ideal S2000x128 .f32) (x3 x4 : Vec Ideal S128x128 .f32) (x5 : Vec Ideal S1x128 .f32)
    (p : Fin 2000) (q : Fin 128) :
    Gen.k1_pay3 (F := Ideal) x0 x3 x1 x4 x5 (ix2 p q) = Ideal.logistic (Cert.TreeGru.pre x0 x1 x3 x4 x5 p q) := by
  unfold Gen.k1_pay3 Gen.k1_pay2
  rw [shapeCast_self]
  exact congrArg Ideal.logistic (pre_at x0 x1 x3 x4 x5 _ _ p q)

/-- The candidate at an entry: the hyperbolic tangent of its pre-activation. -/
private theorem cand_at (x0 x2 : Vec Ideal S2000x128 .f32) (x6 x7 : Vec Ideal S128x128 .f32) (x8 : Vec Ideal S1x128 .f32)
    (p : Fin 2000) (q : Fin 128) :
    Gen.k1_pay4 (F := Ideal) x0 x6 x2 x7 x8 (ix2 p q) = Ideal.tanh (Cert.TreeGru.pre x0 x2 x6 x7 x8 p q) := by
  unfold Gen.k1_pay4 Gen.k1_pay2
  rw [shapeCast_self]
  exact congrArg Ideal.tanh (pre_at x0 x2 x6 x7 x8 _ _ p q)

/-- The reset kernel's output tile: window 0 the feature rows, window 1 the state rows, windows 2, 3 the weights,
    window 4 the bias. -/
theorem reset_tile (x0 x1 : Vec Ideal S2000x128 .f32) (x2 x3 : Vec Ideal S128x128 .f32) (x4 : Vec Ideal S1x128 .f32) :
    Gen.out0_5 (F := Ideal) x0 x1 x2 x3 x4 = Cert.TreeGru.gated (R := 2000) x0 x1 x2 x3 x4 := by
  unfold Gen.out0_5
  rw [View.canon_unit_zero offsets_zero]
  simp only [View.ld_unit_zero (S := S2000x128) offsets_zero, View.ld_unit_zero (S := S128x128) offsets_zero,
    View.ld_unit_zero (S := S1x128) offsets_zero]
  funext j
  obtain ⟨p, q, rfl⟩ : ∃ (p : Fin 2000) (q : Fin 128), j = ix2 p q := ⟨j 0, j 1, eq_ix2 j⟩
  rw [Cert.TreeGru.gated_apply]
  exact reset_at x0 x1 x2 x3 x4 p q

/-- The update kernel's output tile: window 0 the feature rows, window 1 the summed states, window 2 the summed gated
    states, windows 3, 4, 5 the update gate's weights and bias, windows 6, 7, 8 the candidate's. -/
theorem update_tile (x0 x1 x2 : Vec Ideal S2000x128 .f32) (x3 x4 : Vec Ideal S128x128 .f32) (x5 : Vec Ideal S1x128 .f32)
    (x6 x7 : Vec Ideal S128x128 .f32) (x8 : Vec Ideal S1x128 .f32) :
    Gen.out1_9 (F := Ideal) x0 x1 x2 x3 x4 x5 x6 x7 x8 = Cert.TreeGru.blend (R := 2000) x0 x1 x2 x3 x4 x5 x6 x7 x8 := by
  unfold Gen.out1_9
  rw [View.canon_unit_zero offsets_zero]
  simp only [View.ld_unit_zero (S := S2000x128) offsets_zero, View.ld_unit_zero (S := S128x128) offsets_zero,
    View.ld_unit_zero (S := S1x128) offsets_zero]
  funext j
  obtain ⟨p, q, rfl⟩ : ∃ (p : Fin 2000) (q : Fin 128), j = ix2 p q := ⟨j 0, j 1, eq_ix2 j⟩
  rw [Cert.TreeGru.blend_apply]
  unfold Gen.k1_pay1 Gen.k1_pay6 Gen.k1_pay5
  rw [shapeCast_self]
  -- the stored value is `(1 - z)·s + z·candidate` entry by entry, with `z` the update gate
  show (Cert.TreeGru.one - Gen.k1_pay3 (F := Ideal) x0 x3 x1 x4 x5 (ix2 p q)) * x1 (ix2 p q)
      + Gen.k1_pay3 (F := Ideal) x0 x3 x1 x4 x5 (ix2 p q) * Gen.k1_pay4 (F := Ideal) x0 x6 x2 x7 x8 (ix2 p q) = _
  rw [gate_at, cand_at]

end Cert.KernelIdeal.Tile

end
-- ==== Proof.Arrays.lean ====
/-
  From each kernel's output blocks to its whole output array.

  Either kernel runs over 50 grid points; point t holds rows t·2000 … t·2000 + 1999 of every row-indexed array and
  the whole of every weight and bias. Both functions of the specification are computed row by row, so the tile a point
  writes back — the function on its 2000 rows — is block t of the same function on all 100000 rows: row p of a block
  is row t·2000 + p of its array, and a pre-activation reads nothing else of the row operands. The 50 blocks tile the
  output array (row r lies in block r / 2000), so after the last point the array holds the function of the whole
  argument arrays.
-/
import proofs.«159449_j30382598652169_2_alg».proof.Proof.Gen.KernelIdeal.Frame
import proofs.«159449_j30382598652169_2_alg».proof.Proof.Spec
import proofs.«159449_j30382598652169_2_alg».proof.Proof.Tile
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem Cert.KernelIdeal Cert.KernelIdeal.Gen
open Idealize.ShloMosaic.Pipeline (Dat)

/-! ## The reset kernel (region 0) -/

/-- The printed index maps over the grid: the two row windows and the output take block (t, 0) at point t; the
    weights and the bias take block (0, 0). -/
theorem reset_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row p of the feature block at point t is row t·2000 + p of the feature array. -/
theorem reset_feature_rows (c : Dev nD) (t : Fin cfg0.N) (p : Fin 2000) (d : Fin 128) (r : Fin 100000)
    (hr : r.val = t.val * 2000 + p.val) :
    (iblk0 V c 0 t : Vec Ideal S2000x128 .f32) (ix2 p d) = (V c main_arg2 : S100000x128.Idx → EReal) (ix2 r d) := by
  obtain ⟨e0, e1, -⟩ := reset_index t
  unfold iblk0
  rw [View.read_apply]
  show V c main_arg2 _ = V c main_arg2 _
  refine congrArg _ ?_
  funext a
  apply Fin.ext
  match a with
  | ⟨0, _⟩ => show win0_0.index t (0 : Fin 2) * 2000 + 1 * p.val = r.val; omega
  | ⟨1, _⟩ => show win0_0.index t (1 : Fin 2) * 128 + 1 * d.val = d.val; omega

/-- Row p of the state block at point t is row t·2000 + p of the state array. -/
theorem reset_state_rows (c : Dev nD) (t : Fin cfg0.N) (p : Fin 2000) (d : Fin 128) (r : Fin 100000)
    (hr : r.val = t.val * 2000 + p.val) :
    (iblk0 V c 1 t : Vec Ideal S2000x128 .f32) (ix2 p d) = (V c main_arg0 : S100000x128.Idx → EReal) (ix2 r d) := by
  obtain ⟨-, -, e0, e1, -⟩ := reset_index t
  unfold iblk0
  rw [View.read_apply]
  show V c main_arg0 _ = V c main_arg0 _
  refine congrArg _ ?_
  funext a
  apply Fin.ext
  match a with
  | ⟨0, _⟩ => show win0_1.index t (0 : Fin 2) * 2000 + 1 * p.val = r.val; omega
  | ⟨1, _⟩ => show win0_1.index t (1 : Fin 2) * 128 + 1 * d.val = d.val; omega

/-- The weight and bias windows hold their whole arrays at every point. -/
theorem reset_wx (c : Dev nD) (t : Fin cfg0.N) :
    (iblk0 V c 2 t : Vec Ideal S128x128 .f32) = (V c main_arg8 : S128x128.Idx → EReal) := by
  obtain ⟨-, -, -, -, e0, e1, -⟩ := reset_index t
  funext j
  unfold iblk0
  rw [View.read_apply]
  show V c main_arg8 _ = V c main_arg8 j
  refine congrArg _ ?_
  funext a
  apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

theorem reset_wy (c : Dev nD) (t : Fin cfg0.N) :
    (iblk0 V c 3 t : Vec Ideal S128x128 .f32) = (V c main_arg9 : S128x128.Idx → EReal) := by
  obtain ⟨-, -, -, -, -, -, e0, e1, -⟩ := reset_index t
  funext j
  unfold iblk0
  rw [View.read_apply]
  show V c main_arg9 _ = V c main_arg9 j
  refine congrArg _ ?_
  funext a
  apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

theorem reset_bias (c : Dev nD) (t : Fin cfg0.N) :
    (iblk0 V c 4 t : Vec Ideal S1x128 .f32) = (V c main_arg10 : S1x128.Idx → EReal) := by
  obtain ⟨-, -, -, -, -, -, -, -, e0, e1, -⟩ := reset_index t
  funext j
  unfold iblk0
  rw [View.read_apply]
  show V c main_arg10 _ = V c main_arg10 j
  refine congrArg _ ?_
  funext a
  apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- Entry (p, q) of the output block at point t sits at (t·2000 + p, q) in the output array. -/
theorem reset_out_emb (t : Fin cfg0.N) (p : Fin 2000) (q : Fin 128) (r : Fin 100000)
    (hr : r.val = t.val * 2000 + p.val) :
    ((cfg0.win 5).blk t).view.emb (ix2 p q : S2000x128.Idx) = (ix2 r q : S100000x128.Idx) := by
  obtain ⟨-, -, -, -, -, -, -, -, -, -, e0, e1⟩ := reset_index t
  funext a
  apply Fin.ext
  match a with
  | ⟨0, _⟩ => show win0_5.index t (0 : Fin 2) * 2000 + 1 * p.val = r.val; omega
  | ⟨1, _⟩ => show win0_5.index t (1 : Fin 2) * 128 + 1 * q.val = q.val; omega

/-- The gated state at row p of a block of rows is the gated state at row r of the whole arrays, when row p of each
    block is row r of its array and the weights and bias are the same. -/
theorem gated_rows {R R' : Nat} (x y : FVec Ideal (Cert.TreeGru.Rows R) .f32) (x' y' : FVec Ideal (Cert.TreeGru.Rows R') .f32)
    (wx wy : FVec Ideal Cert.TreeGru.Sq .f32) (bias : FVec Ideal Cert.TreeGru.Bias .f32) (p : Fin R) (r : Fin R') (q : Fin 128)
    (hx : ∀ d : Fin 128, x (ix2 p d) = x' (ix2 r d)) (hy : ∀ d : Fin 128, y (ix2 p d) = y' (ix2 r d)) :
    Cert.TreeGru.gated x y wx wy bias (ix2 p q) = Cert.TreeGru.gated x' y' wx wy bias (ix2 r q) := by
  rw [Cert.TreeGru.gated_apply, Cert.TreeGru.gated_apply,
    Cert.TreeGru.pre_congr x y x' y' wx wy wx wy bias bias p r q hx hy (fun _ => rfl) (fun _ => rfl) rfl, hy q]

/-- What point t writes back is block t of the gated state of the whole arrays. -/
theorem reset_flushed (c : Dev nD) (t : Fin cfg0.N) :
    (dat0 V c).flushed 5 t = ((cfg0.win 5).blk t).view.read (Elt Ideal)
      (Cert.TreeGru.gated (R := 100000) (V c main_arg2) (V c main_arg0) (V c main_arg8) (V c main_arg9) (V c main_arg10)) := by
  show (cfg0.win 5).cut (grid0.coords t) ((dat0 V c).after 5 t) = _
  rw [after0_5, Tile.reset_tile, reset_wx, reset_wy, reset_bias]
  funext j
  obtain ⟨p, q, rfl⟩ : ∃ (p : Fin 2000) (q : Fin 128), j = ix2 p q := ⟨j 0, j 1, eq_ix2 j⟩
  have ht : t.val < 50 := Nat.lt_of_lt_of_eq t.isLt (show cfg0.N = 50 from N_0)
  rw [View.read_apply, reset_out_emb t p q ⟨t.val * 2000 + p.val, by omega⟩ rfl]
  exact gated_rows _ _ _ _ _ _ _ p ⟨t.val * 2000 + p.val, by omega⟩ q
    (fun d => reset_feature_rows V c t p d _ rfl) (fun d => reset_state_rows V c t p d _ rfl)

/-- An index of the output array is in point t's block iff each coordinate is in the block's range on its axis. -/
theorem reset_mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v10).slice (win0_5.rect t)).set ↔ _
  rw [View.set_slice_whole, Rect.mem_set_unit]
  exact Iff.rfl

/-- The 50 blocks of 2000 rows tile the 100000 rows: row r lies in the block of point r / 2000. -/
theorem reset_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, Nat.lt_of_lt_of_eq (by omega : (i 0).val / 2000 < 50) (show cfg0.N = 50 from N_0).symm⟩, rfl⟩
  obtain ⟨-, -, -, -, -, -, -, -, -, -, e0, e1⟩ := reset_index t
  refine ⟨t, flush0_5 t, ?_⟩
  rw [reset_mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE RESET KERNEL'S OUTPUT ARRAY after the run: the gated state of the whole argument arrays. -/
theorem reset_array (c : Dev nD) :
    (Gen.dat0 (F := Ideal) V c).arrAt 5 cfg0.N
      = Cert.TreeGru.gated (R := 100000) (V c main_arg2) (V c main_arg0) (V c main_arg8) (V c main_arg9) (V c main_arg10) :=
  (dat0 V c).arrAt_eq_of_cover 5 _ (fun t _ => reset_flushed V c t) reset_cover

/-! ## The update kernel (region 1) -/

/-- The printed index maps over the grid: the three row windows and the output take block (t, 0) at point t. -/
theorem update_index_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0 :=
  (by decide +kernel : ∀ t : Fin grid1.N, _)

/-- The weights and the biases take block (0, 0) at every point. -/
theorem update_index_whole : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Row p of the feature block at point t is row t·2000 + p of the feature array. -/
theorem update_feature_rows (c : Dev nD) (t : Fin cfg1.N) (p : Fin 2000) (d : Fin 128) (r : Fin 100000)
    (hr : r.val = t.val * 2000 + p.val) :
    (iblk1 V c 0 t : Vec Ideal S2000x128 .f32) (ix2 p d) = (V c main_arg1 : S100000x128.Idx → EReal) (ix2 r d) := by
  obtain ⟨e0, e1, -⟩ := update_index_rows t
  unfold iblk1
  rw [View.read_apply]
  show V c main_arg1 _ = V c main_arg1 _
  refine congrArg _ ?_
  funext a
  apply Fin.ext
  match a with
  | ⟨0, _⟩ => show win1_0.index t (0 : Fin 2) * 2000 + 1 * p.val = r.val; omega
  | ⟨1, _⟩ => show win1_0.index t (1 : Fin 2) * 128 + 1 * d.val = d.val; omega

/-- Row p of the block of summed states at point t is row t·2000 + p of the array of summed states. -/
theorem update_summed_rows (c : Dev nD) (t : Fin cfg1.N) (p : Fin 2000) (d : Fin 128) (r : Fin 100000)
    (hr : r.val = t.val * 2000 + p.val) :
    (iblk1 V c 1 t : Vec Ideal S2000x128 .f32) (ix2 p d) = (V c main_v9 : S100000x128.Idx → EReal) (ix2 r d) := by
  obtain ⟨-, -, e0, e1, -⟩ := update_index_rows t
  unfold iblk1
  rw [View.read_apply]
  show V c main_v9 _ = V c main_v9 _
  refine congrArg _ ?_
  funext a
  apply Fin.ext
  match a with
  | ⟨0, _⟩ => show win1_1.index t (0 : Fin 2) * 2000 + 1 * p.val = r.val; omega
  | ⟨1, _⟩ => show win1_1.index t (1 : Fin 2) * 128 + 1 * d.val = d.val; omega

/-- Row p of the block of summed gated states at point t is row t·2000 + p of their array. -/
theorem update_gated_rows (c : Dev nD) (t : Fin cfg1.N) (p : Fin 2000) (d : Fin 128) (r : Fin 100000)
    (hr : r.val = t.val * 2000 + p.val) :
    (iblk1 V c 2 t : Vec Ideal S2000x128 .f32) (ix2 p d) = (V c main_v20 : S100000x128.Idx → EReal) (ix2 r d) := by
  obtain ⟨-, -, -, -, e0, e1, -⟩ := update_index_rows t
  unfold iblk1
  rw [View.read_apply]
  show V c main_v20 _ = V c main_v20 _
  refine congrArg _ ?_
  funext a
  apply Fin.ext
  match a with
  | ⟨0, _⟩ => show win1_2.index t (0 : Fin 2) * 2000 + 1 * p.val = r.val; omega
  | ⟨1, _⟩ => show win1_2.index t (1 : Fin 2) * 128 + 1 * d.val = d.val; omega

/-- The weight and bias windows hold their whole arrays at every point: the update gate's, -/
theorem update_wz (c : Dev nD) (t : Fin cfg1.N) :
    (iblk1 V c 3 t : Vec Ideal S128x128 .f32) = (V c main_arg5 : S128x128.Idx → EReal) := by
  obtain ⟨e0, e1, -⟩ := update_index_whole t
  funext j
  unfold iblk1
  rw [View.read_apply]
  show V c main_arg5 _ = V c main_arg5 j
  refine congrArg _ ?_
  funext a
  apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

theorem update_uz (c : Dev nD) (t : Fin cfg1.N) :
    (iblk1 V c 4 t : Vec Ideal S128x128 .f32) = (V c main_arg6 : S128x128.Idx → EReal) := by
  obtain ⟨-, -, e0, e1, -⟩ := update_index_whole t
  funext j
  unfold iblk1
  rw [View.read_apply]
  show V c main_arg6 _ = V c main_arg6 j
  refine congrArg _ ?_
  funext a
  apply Fin.ext
  match a with
  | ⟨0, _⟩ => show win1_4.index t (0 : Fin 2) * 128 + 1 * (j 0).val = (j 0).val; omega
  | ⟨1, _⟩ => show win1_4.index t (1 : Fin 2) * 128 + 1 * (j 1).val = (j 1).val; omega

theorem update_bz (c : Dev nD) (t : Fin cfg1.N) :
    (iblk1 V c 5 t : Vec Ideal S1x128 .f32) = (V c main_arg7 : S1x128.Idx → EReal) := by
  obtain ⟨-, -, -, -, e0, e1, -⟩ := update_index_whole t
  funext j
  unfold iblk1
  rw [View.read_apply]
  show V c main_arg7 _ = V c main_arg7 j
  refine congrArg _ ?_
  funext a
  apply Fin.ext
  match a with
  | ⟨0, _⟩ => show win1_5.index t (0 : Fin 2) * 1 + 1 * (j 0).val = (j 0).val; omega
  | ⟨1, _⟩ => show win1_5.index t (1 : Fin 2) * 128 + 1 * (j 1).val = (j 1).val; omega

/-- and the candidate's. -/
theorem update_w (c : Dev nD) (t : Fin cfg1.N) :
    (iblk1 V c 6 t : Vec Ideal S128x128 .f32) = (V c main_arg11 : S128x128.Idx → EReal) := by
  obtain ⟨-, -, -, -, -, -, e0, e1, -⟩ := update_index_whole t
  funext j
  unfold iblk1
  rw [View.read_apply]
  show V c main_arg11 _ = V c main_arg11 j
  refine congrArg _ ?_
  funext a
  apply Fin.ext
  match a with
  | ⟨0, _⟩ => show win1_6.index t (0 : Fin 2) * 128 + 1 * (j 0).val = (j 0).val; omega
  | ⟨1, _⟩ => show win1_6.index t (1 : Fin 2) * 128 + 1 * (j 1).val = (j 1).val; omega

theorem update_u (c : Dev nD) (t : Fin cfg1.N) :
    (iblk1 V c 7 t : Vec Ideal S128x128 .f32) = (V c main_arg12 : S128x128.Idx → EReal) := by
  obtain ⟨-, -, -, -, -, -, -, -, e0, e1, -⟩ := update_index_whole t
  funext j
  unfold iblk1
  rw [View.read_apply]
  show V c main_arg12 _ = V c main_arg12 j
  refine congrArg _ ?_
  funext a
  apply Fin.ext
  match a with
  | ⟨0, _⟩ => show win1_7.index t (0 : Fin 2) * 128 + 1 * (j 0).val = (j 0).val; omega
  | ⟨1, _⟩ => show win1_7.index t (1 : Fin 2) * 128 + 1 * (j 1).val = (j 1).val; omega

theorem update_b (c : Dev nD) (t : Fin cfg1.N) :
    (iblk1 V c 8 t : Vec Ideal S1x128 .f32) = (V c main_arg13 : S1x128.Idx → EReal) := by
  obtain ⟨-, -, -, -, -, -, -, -, -, -, e0, e1⟩ := update_index_whole t
  funext j
  unfold iblk1
  rw [View.read_apply]
  show V c main_arg13 _ = V c main_arg13 j
  refine congrArg _ ?_
  funext a
  apply Fin.ext
  match a with
  | ⟨0, _⟩ => show win1_8.index t (0 : Fin 2) * 1 + 1 * (j 0).val = (j 0).val; omega
  | ⟨1, _⟩ => show win1_8.index t (1 : Fin 2) * 128 + 1 * (j 1).val = (j 1).val; omega

/-- Entry (p, q) of the output block at point t sits at (t·2000 + p, q) in the output array. -/
theorem update_out_emb (t : Fin cfg1.N) (p : Fin 2000) (q : Fin 128) (r : Fin 100000)
    (hr : r.val = t.val * 2000 + p.val) :
    ((cfg1.win 9).blk t).view.emb (ix2 p q : S2000x128.Idx) = (ix2 r q : S100000x128.Idx) := by
  obtain ⟨-, -, -, -, -, -, e0, e1⟩ := update_index_rows t
  funext a
  apply Fin.ext
  match a with
  | ⟨0, _⟩ => show win1_9.index t (0 : Fin 2) * 2000 + 1 * p.val = r.val; omega
  | ⟨1, _⟩ => show win1_9.index t (1 : Fin 2) * 128 + 1 * q.val = q.val; omega

/-- The new state at row p of a block of rows is the new state at row r of the whole arrays, when row p of each
    block is row r of its array and the weights and biases are the same. -/
theorem blend_rows {R R' : Nat} (f s g : FVec Ideal (Cert.TreeGru.Rows R) .f32) (f' s' g' : FVec Ideal (Cert.TreeGru.Rows R') .f32)
    (wz uz : FVec Ideal Cert.TreeGru.Sq .f32) (bz : FVec Ideal Cert.TreeGru.Bias .f32)
    (w u : FVec Ideal Cert.TreeGru.Sq .f32) (b : FVec Ideal Cert.TreeGru.Bias .f32) (p : Fin R) (r : Fin R') (q : Fin 128)
    (hf : ∀ d : Fin 128, f (ix2 p d) = f' (ix2 r d)) (hs : ∀ d : Fin 128, s (ix2 p d) = s' (ix2 r d))
    (hg : ∀ d : Fin 128, g (ix2 p d) = g' (ix2 r d)) :
    Cert.TreeGru.blend f s g wz uz bz w u b (ix2 p q) = Cert.TreeGru.blend f' s' g' wz uz bz w u b (ix2 r q) := by
  rw [Cert.TreeGru.blend_apply, Cert.TreeGru.blend_apply,
    Cert.TreeGru.pre_congr f s f' s' wz uz wz uz bz bz p r q hf hs (fun _ => rfl) (fun _ => rfl) rfl,
    Cert.TreeGru.pre_congr f g f' g' w u w u b b p r q hf hg (fun _ => rfl) (fun _ => rfl) rfl, hs q]

/-- What point t writes back is block t of the new state of the whole arrays. -/
theorem update_flushed (c : Dev nD) (t : Fin cfg1.N) :
    (dat1 V c).flushed 9 t = ((cfg1.win 9).blk t).view.read (Elt Ideal)
      (Cert.TreeGru.blend (R := 100000) (V c main_arg1) (V c main_v9) (V c main_v20) (V c main_arg5) (V c main_arg6)
        (V c main_arg7) (V c main_arg11) (V c main_arg12) (V c main_arg13)) := by
  show (cfg1.win 9).cut (grid1.coords t) ((dat1 V c).after 9 t) = _
  rw [after1_9, Tile.update_tile, update_wz, update_uz, update_bz, update_w, update_u, update_b]
  funext j
  obtain ⟨p, q, rfl⟩ : ∃ (p : Fin 2000) (q : Fin 128), j = ix2 p q := ⟨j 0, j 1, eq_ix2 j⟩
  have ht : t.val < 50 := Nat.lt_of_lt_of_eq t.isLt (show cfg1.N = 50 from N_1)
  rw [View.read_apply, update_out_emb t p q ⟨t.val * 2000 + p.val, by omega⟩ rfl]
  exact blend_rows _ _ _ _ _ _ _ _ _ _ _ _ p ⟨t.val * 2000 + p.val, by omega⟩ q
    (fun d => update_feature_rows V c t p d _ rfl) (fun d => update_summed_rows V c t p d _ rfl)
    (fun d => update_gated_rows V c t p d _ rfl)

/-- An index of the output array is in point t's block iff each coordinate is in the block's range on its axis. -/
theorem update_mem_blk (t : Fin cfg1.N) (i : S100000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v21).slice (win1_9.rect t)).set ↔ _
  rw [View.set_slice_whole, Rect.mem_set_unit]
  exact Iff.rfl

/-- The 50 blocks of 2000 rows tile the 100000 rows: row r lies in the block of point r / 2000. -/
theorem update_cover (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, Nat.lt_of_lt_of_eq (by omega : (i 0).val / 2000 < 50) (show cfg1.N = 50 from N_1).symm⟩, rfl⟩
  obtain ⟨-, -, -, -, -, -, e0, e1⟩ := update_index_rows t
  refine ⟨t, flush1_9 t, ?_⟩
  rw [update_mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-- THE UPDATE KERNEL'S OUTPUT ARRAY after the run: the new state of the whole argument arrays. -/
theorem update_array (c : Dev nD) :
    (Gen.dat1 (F := Ideal) V c).arrAt 9 cfg1.N
      = Cert.TreeGru.blend (R := 100000) (V c main_arg1) (V c main_v9) (V c main_v20) (V c main_arg5) (V c main_arg6)
          (V c main_arg7) (V c main_arg11) (V c main_arg12) (V c main_arg13) :=
  (dat1 V c).arrAt_eq_of_cover 9 _ (fun t _ => update_flushed V c t) update_cover

end Cert.KernelIdeal.Arrays
end
-- ==== Proof.KernelValue.lean ====
/-
  The idealized kernel's result as one function of its fourteen arguments.

  The second region's output array is `TreeGru.blend` of the arrays that region finds: the feature rows, the
  neighbour sum of the states, the neighbour sum of the first region's output, and the weights. The first region's
  output array is `TreeGru.gated` of the arrays it finds, which are arguments. Substituting what the host puts in
  those buffers gives the result: the blend of the features, the summed states and the summed gated states.
-/
import proofs.«159449_j30382598652169_2_alg».proof.Proof.KernelRun
import proofs.«159449_j30382598652169_2_alg».proof.Proof.HostValues
import proofs.«159449_j30382598652169_2_alg».proof.Proof.Arrays
import proofs.«159449_j30382598652169_2_alg».proof.Proof.Spec

set_option maxRecDepth 16384

noncomputable section

namespace Cert.KernelIdeal.KernelValue

open Cert.KernelIdeal Cert.KernelIdeal.Gen Cert.KernelIdeal.HostValue
open Idealize.ShloMosaic Idealize.ShloMosaic.TcCoe Idealize.SL.Sem

/-- The new node states from the arguments: states `a0`, source features `a1`, destination features `a2`, the edges'
    source and destination indices `a3`, `a4`, the update gate's weights and bias `a5 a6 a7`, the reset gate's
    `a8 a9 a10`, the candidate's `a11 a12 a13`. -/
def result (a0 a1 a2 : (⟨S100000x128, .f32⟩ : BufTy).Contents (Elt Ideal)) (a3 a4 : (⟨S1600000, .i32⟩ : BufTy).Contents (Elt Ideal))
    (a5 a6 : (⟨S128x128, .f32⟩ : BufTy).Contents (Elt Ideal)) (a7 : (⟨S1x128, .f32⟩ : BufTy).Contents (Elt Ideal)) (a8 a9 : (⟨S128x128, .f32⟩ : BufTy).Contents (Elt Ideal)) (a10 : (⟨S1x128, .f32⟩ : BufTy).Contents (Elt Ideal))
    (a11 a12 : (⟨S128x128, .f32⟩ : BufTy).Contents (Elt Ideal)) (a13 : (⟨S1x128, .f32⟩ : BufTy).Contents (Elt Ideal)) : (⟨S100000x128, .f32⟩ : BufTy).Contents (Elt Ideal) :=
  Cert.TreeGru.blend (R := 100000) a1 (segSum a4 (rowsAt a3 a0))
    (segSum a4 (rowsAt a3 (Cert.TreeGru.gated (R := 100000) a2 a0 a8 a9 a10))) a5 a6 a7 a11 a12 a13

/-- Equal operands give equal gated states. -/
theorem gated_congr {x x' y y' : (⟨S100000x128, .f32⟩ : BufTy).Contents (Elt Ideal)} {wx wx' wy wy' : (⟨S128x128, .f32⟩ : BufTy).Contents (Elt Ideal)} {b b' : (⟨S1x128, .f32⟩ : BufTy).Contents (Elt Ideal)}
    (hx : x = x') (hy : y = y') (hwx : wx = wx') (hwy : wy = wy') (hb : b = b') :
    Cert.TreeGru.gated (R := 100000) x y wx wy b = Cert.TreeGru.gated (R := 100000) x' y' wx' wy' b' := by
  rw [hx, hy, hwx, hwy, hb]

/-- Equal operands give equal new states. -/
theorem blend_congr {f f' s s' g g' : (⟨S100000x128, .f32⟩ : BufTy).Contents (Elt Ideal)} {wz wz' uz uz' w w' u u' : (⟨S128x128, .f32⟩ : BufTy).Contents (Elt Ideal)} {bz bz' b b' : (⟨S1x128, .f32⟩ : BufTy).Contents (Elt Ideal)}
    (hf : f = f') (hs : s = s') (hg : g = g') (hwz : wz = wz') (huz : uz = uz') (hbz : bz = bz')
    (hw : w = w') (hu : u = u') (hb : b = b') :
    Cert.TreeGru.blend (R := 100000) f s g wz uz bz w u b = Cert.TreeGru.blend (R := 100000) f' s' g' wz' uz' bz' w' u' b' := by
  rw [hf, hs, hg, hwz, huz, hbz, hw, hu, hb]

variable (m : (ℓ : Loc nD τ sig) → Buf (Elt Ideal) ℓ) (ρ : Dev nD → PrngReg)

/-- The first region's output array, from the arguments. -/
theorem gated_value (c : Dev nD) :
    (dat0 (V1 m ρ) c).arrAt 5 cfg0.N
      = Cert.TreeGru.gated (R := 100000) (m ((c : Thread nD τ).loc main_arg2)) (m ((c : Thread nD τ).loc main_arg0)) (m ((c : Thread nD τ).loc main_arg8)) (m ((c : Thread nD τ).loc main_arg9)) (m ((c : Thread nD τ).loc main_arg10)) :=
  (Cert.KernelIdeal.Arrays.reset_array (V1 m ρ) c).trans
    (gated_congr (entry0_arg2 m ρ c) (entry0_arg0 m ρ c) (entry0_arg8 m ρ c) (entry0_arg9 m ρ c) (entry0_arg10 m ρ c))

/-- The result buffer at the last segment boundary, from the arguments. -/
theorem boundary_value (c : Dev nD) :
    W4 m ρ c (Proc.devRef .tc main_v21) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (boundary_result m ρ c).trans ?_
  refine (Cert.KernelIdeal.Arrays.update_array (V3 m ρ) c).trans ?_
  unfold result
  refine blend_congr (entry1_arg1 m ρ c) (entry1_sum m ρ c) ?_ (entry1_arg5 m ρ c) (entry1_arg6 m ρ c) (entry1_arg7 m ρ c)
    (entry1_arg11 m ρ c) (entry1_arg12 m ρ c) (entry1_arg13 m ρ c)
  refine (entry1_gatedSum m ρ c).trans ?_
  exact congrArg (fun t => segSum (m ((c : Thread nD τ).loc main_arg4)) (rowsAt (m ((c : Thread nD τ).loc main_arg3)) t)) (gated_value m ρ c)

/-- Every weakly fair execution of the idealized kernel terminates, nothing faulting, with the result buffer at
    `result` of the arguments and the arguments as launched. -/
theorem run_value : θ_run defs (onTc (τ := τ) (main (F := Ideal))) ⟨m, fun _ => 0, ρ⟩ (fun r => ∀ c : Dev nD,
      r.2.mem ((c : Thread nD τ).loc main_v21) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run defs _ _).mono (fun r h c => ⟨(h c).1.trans (boundary_value m ρ c), (h c).2⟩)
    (Cert.KernelIdeal.RunValue.run_boundary (F := Ideal) m ρ)

end Cert.KernelIdeal.KernelValue

end
-- ==== Proof.LibRowGather.lean ====
/-
  A ROW GATHER read at an index.

  `x[idx]` of a table `x : [N, C]` at a column of integers `idx : [P, 1]` (one start index per result row) is
  StableHLO's gather with offset axis 1, collapsed axis 0, start-index map [0], the index vector on axis 1 and
  slices of one whole row. Result entry `(p, q)` is the table's entry `(ρ p, q)`, where `ρ p` is the start index
  `idx[p, 0]` read as a signed integer and clamped into `[0, N − 1]` — the same row for every column `q`, and the same
  row whatever the table's width `C`. That last fact is what lets a product on the right be taken before or after
  the gather: `(X · W)[ρ p, q] = ∑ k, X[ρ p, k] · W[k, q]`.
-/
import Idealize.ShloMosaic.PureOps.Ideal
import Idealize.ShloMosaic.Lib.ValueIdx

noncomputable section

namespace Cert.RowGather

open Idealize.ShloMosaic Idealize.ShloMosaic.ValueIdx

/-- The row of an `N`-row table that result row `p`'s start index selects: the 32-bit word read signed and clamped
    into `[0, N − 1]`. It does not depend on the table's width. -/
def rowOf (N : Nat) (hN : 0 < N) {P : Nat} (idx : (⟨2, ![P, 1]⟩ : Shape).Idx → BitVec 32) (p : Fin P) : Fin N :=
  ⟨min (idx (ix2 p 0)).toInt.toNat (N - 1), by omega⟩

/-- The dimension numbers of a row gather from `[N, C]` by `[P, 1]` start indices into `[P, C]`; their conditions
    `wf` are decided on a program's literal shapes. -/
abbrev rowDims (N P C : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, q)`: the table at row `rowOf … p`, column `q`. -/
theorem gather_rows_apply {α : Type} {N P C : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ 32) (p : Fin P) (q : Fin C) :
    Host.gather (rowDims N P C wf) x idx (ix2 p q) = x (ix2 (rowOf N hN idx p) q) := by
  unfold Host.gather
  congr 1
  funext a
  refine Fin.ext ?_
  match a with
  | ⟨0, _⟩ =>
    show (rowDims N P C wf).start (ix2 p q) idx 0 + (rowDims N P C wf).batchCoord (ix2 p q) 0
      + (rowDims N P C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N P C wf).startIndexMap from List.mem_singleton.mpr rfl)]
    have hsi : (rowDims N P C wf).siIdx (ix2 p q) ⟨List.idxOf (0 : Fin 2) (rowDims N P C wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims N P C wf).start (ix2 p q) idx 1 + (rowDims N P C wf).batchCoord (ix2 p q) 1
      + (rowDims N P C wf).offCoord (ix2 p q) 1 = _
    rw [GatherDims.batchCoord_eq_zero _ _ _ List.not_mem_nil]
    unfold GatherDims.start
    have h10 : ¬ (1 : Fin 2) ∈ [(0 : Fin 2)] := fun h =>
      absurd (congrArg Fin.val (List.mem_singleton.mp h)) Nat.one_ne_zero
    rw [dif_neg (show ¬ (1 : Fin 2) ∈ (rowDims N P C wf).startIndexMap from h10)]
    unfold GatherDims.offCoord
    rw [dif_pos (show (1 : Fin 2) ∈ (rowDims N P C wf).sKept from
      (GatherDims.mem_sKept _ _).mpr ⟨h10, List.not_mem_nil⟩)]
    simp only [Nat.add_zero, Nat.zero_add]
    rfl

end Cert.RowGather

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.RefEdges.lean ====
/-
  The reference's per-edge stage, as a row gather of the per-node function `gated`.

  The reference first selects, for every edge `e`, the rows `f_dst[ρ e, :]` and `h[ρ e, :]` of its source node `ρ e`
  (the edge's source index, wrapped and clamped into the table), and then computes on those 1600000 selected rows
  the reset gate `1 / (1 + exp (-(f_dst[ρ e,:]·wr + h[ρ e,:]·ur + br)))` times `h[ρ e, :]`. Every operation of that
  computation is row-wise: entry `(e, q)` of each product reads only row `e` of its left operand, and the sums, the
  negation, the exponential, the quotient and the final product are entry by entry. So entry `(e, q)` of the result
  is the per-node value `gated f_dst h wr ur br` at `(ρ e, q)`, which is what selecting rows of `gated …` by the
  same index column gives. The three index columns the program computes are one and the same term.
-/
import proofs.«159449_j30382598652169_2_alg».proof.Proof.Gen.ReferenceIdeal.Read
import proofs.«159449_j30382598652169_2_alg».proof.Proof.Spec
import proofs.«159449_j30382598652169_2_alg».proof.Proof.LibRowGather
import proofs.«159449_j30382598652169_2_alg».proof.Proof.LibHostRead

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The index functions of the products and the bias, at explicit coordinates -/

theorem lidx_v35 (e : Fin 1600000) (q k : Fin 128) : lidx_main_v35 (ix2 e q) k = ix2 e k :=
  funext fun a => Fin.ext (by match a with | ⟨0, _⟩ => rfl | ⟨1, _⟩ => rfl)
theorem ridx_v35 (e : Fin 1600000) (q k : Fin 128) : ridx_main_v35 (ix2 e q) k = ix2 k q :=
  funext fun a => Fin.ext (by match a with | ⟨0, _⟩ => rfl | ⟨1, _⟩ => rfl)
theorem lidx_v36 (e : Fin 1600000) (q k : Fin 128) : lidx_main_v36 (ix2 e q) k = ix2 e k :=
  funext fun a => Fin.ext (by match a with | ⟨0, _⟩ => rfl | ⟨1, _⟩ => rfl)
theorem ridx_v36 (e : Fin 1600000) (q k : Fin 128) : ridx_main_v36 (ix2 e q) k = ix2 k q :=
  funext fun a => Fin.ext (by match a with | ⟨0, _⟩ => rfl | ⟨1, _⟩ => rfl)
theorem idx_v38 (e : Fin 1600000) (q : Fin 128) : idx_main_v38 (ix2 e q) = ix2 0 q :=
  funext fun a => Fin.ext (by match a with | ⟨0, _⟩ => rfl | ⟨1, _⟩ => rfl)

/-! ## The row gathers -/

/-- The source node of edge `e`: the row its start index selects in a table of 100000 rows. -/
abbrev src (x3 : (⟨S1600000, .i32⟩ : BufTy).Contents (Elt Ideal)) (e : Fin 1600000) : Fin 100000 :=
  Cert.RowGather.rowOf 100000 (by decide) (val_main_v26 (F := Ideal) x3) e

/-- The program's gather of rows, read at `(e, q)`: the table at the selected row, same column. -/
theorem gather_read {α : Type} (x : S100000x128.Idx → α) (idx : IVec S1600000x1 32) (e : Fin 1600000) (q : Fin 128) :
    Host.gather gather_S100000x128_S1600000x1_S1600000x128_1_0_n_n_0_1_1128 x idx (ix2 e q)
      = x (ix2 (Cert.RowGather.rowOf 100000 (by decide) idx e) q) :=
  Cert.RowGather.gather_rows_apply (by decide) gather_S100000x128_S1600000x1_S1600000x128_1_0_n_n_0_1_1128_wf x idx e q

/-- The index column is computed three times by the same operations on the same argument. -/
theorem v33_eq_v26 (x3 : (⟨S1600000, .i32⟩ : BufTy).Contents (Elt Ideal)) :
    val_main_v33 (F := Ideal) x3 = val_main_v26 (F := Ideal) x3 := rfl
theorem v5_eq_v26 (x3 : (⟨S1600000, .i32⟩ : BufTy).Contents (Elt Ideal)) :
    val_main_v5 (F := Ideal) x3 = val_main_v26 (F := Ideal) x3 := rfl

/-- The gathered rows of `h`. -/
theorem v27_read (x0 : (⟨S100000x128, .f32⟩ : BufTy).Contents (Elt Ideal))
    (x3 : (⟨S1600000, .i32⟩ : BufTy).Contents (Elt Ideal)) (e : Fin 1600000) (q : Fin 128) :
    val_main_v27 (F := Ideal) x0 x3 (ix2 e q) = x0 (ix2 (src x3 e) q) := by
  unfold val_main_v27
  exact gather_read x0 _ e q

/-- The gathered rows of `f_dst`. -/
theorem v34_read (x2 : (⟨S100000x128, .f32⟩ : BufTy).Contents (Elt Ideal))
    (x3 : (⟨S1600000, .i32⟩ : BufTy).Contents (Elt Ideal)) (e : Fin 1600000) (q : Fin 128) :
    val_main_v34 (F := Ideal) x2 x3 (ix2 e q) = x2 (ix2 (src x3 e) q) := by
  unfold val_main_v34
  rw [v33_eq_v26]
  exact gather_read x2 _ e q

/-! ## The logistic function as the program spells it -/

/-- `1 / (1 + exp (-x))` with the float ones of the program is the logistic function: the word of the float one
    denotes the real one, and the logistic function is defined as that quotient. -/
theorem logistic_spelt (x : EReal) :
    Ideal.div (Ideal.ofBits .f32 0x3F800000#32) (Ideal.ofBits .f32 0x3F800000#32 + Ideal.exp (-x))
      = Ideal.logistic x := by
  rw [Cert.HostRead.ofBits_one_f32]
  rfl

/-! ## The per-edge stage -/

/-- The reference's product of the gate and the gathered state is the row gather of the per-node `gated`. -/
theorem edges_value (x0 x2 : (⟨S100000x128, .f32⟩ : BufTy).Contents (Elt Ideal))
    (x3 : (⟨S1600000, .i32⟩ : BufTy).Contents (Elt Ideal))
    (x8 x9 : (⟨S128x128, .f32⟩ : BufTy).Contents (Elt Ideal)) (x10 : (⟨S1x128, .f32⟩ : BufTy).Contents (Elt Ideal)) :
    val_main_v46 (F := Ideal) x0 x2 x3 x8 x9 x10
      = Host.gather gather_S100000x128_S1600000x1_S1600000x128_1_0_n_n_0_1_1128
          (Cert.TreeGru.gated (R := 100000) x2 x0 x8 x9 x10) (val_main_v26 (F := Ideal) x3) := by
  funext i
  obtain ⟨e, q, rfl⟩ : ∃ (e : Fin 1600000) (q : Fin 128), i = ix2 e q := ⟨i 0, i 1, eq_ix2 i⟩
  rw [gather_read, Cert.TreeGru.gated_apply]
  rw [val_main_v46_apply, val_main_v45_apply, val_main_v44_apply, val_main_cst_8_apply, val_main_v43_apply,
    val_main_v42_apply, val_main_cst_7_apply, val_main_v41_apply, val_main_v40_apply, val_main_v39_apply,
    val_main_v38_apply, val_main_v37_apply, val_main_v36_apply, val_main_v35_apply, v27_read]
  simp only [lidx_v35, ridx_v35, lidx_v36, ridx_v36, idx_v38, v27_read, v34_read,
    Ideal.hostDivf_def, Ideal.hostUnary_exp_def, Ideal.hostNegf_def, Ideal.negf_def, Ideal.addf_def, Ideal.mulf_def,
    Ideal.ofBits_def, Cert.HostRead.ofBits_one_f32]
  rfl

end Cert.ReferenceIdeal.RefValue

end
-- ==== Proof.RefValue.lean ====
/-
  The reference's result, as the per-node function `blend` of its two segment sums.

  After the two segment sums `s` (of the gathered states) and `g` (of the gathered gated states) the reference works
  on whole arrays of 100000 rows: the update gate `z = 1 / (1 + exp (-(f_src·wz + s·uz + bz)))`, the candidate
  `tanh (f_src·w + g·u + b)`, and the result `(1 - z)·s + z·candidate`. Each product read at `(p, q)` is the sum over
  the contracted coordinate of row `p` of its left operand against column `q` of the weight, each bias reads its
  entry `q`, and everything else is entry by entry; so the result at `(p, q)` is `blend f_src s g wz uz bz w u b`
  at `(p, q)`. The two segment sums are never opened: they enter as arrays.
-/
import proofs.«159449_j30382598652169_2_alg».proof.Proof.Gen.ReferenceIdeal.Read
import proofs.«159449_j30382598652169_2_alg».proof.Proof.Spec
import proofs.«159449_j30382598652169_2_alg».proof.Proof.LibRowGather
import proofs.«159449_j30382598652169_2_alg».proof.Proof.LibHostRead
import proofs.«159449_j30382598652169_2_alg».proof.Proof.RefEdges

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The index functions of the products and the biases, at explicit coordinates -/

theorem lidx_v10 (p : Fin 100000) (q k : Fin 128) : lidx_main_v10 (ix2 p q) k = ix2 p k :=
  funext fun a => Fin.ext (by match a with | ⟨0, _⟩ => rfl | ⟨1, _⟩ => rfl)
theorem ridx_v10 (p : Fin 100000) (q k : Fin 128) : ridx_main_v10 (ix2 p q) k = ix2 k q :=
  funext fun a => Fin.ext (by match a with | ⟨0, _⟩ => rfl | ⟨1, _⟩ => rfl)
theorem lidx_v11 (p : Fin 100000) (q k : Fin 128) : lidx_main_v11 (ix2 p q) k = ix2 p k :=
  funext fun a => Fin.ext (by match a with | ⟨0, _⟩ => rfl | ⟨1, _⟩ => rfl)
theorem ridx_v11 (p : Fin 100000) (q k : Fin 128) : ridx_main_v11 (ix2 p q) k = ix2 k q :=
  funext fun a => Fin.ext (by match a with | ⟨0, _⟩ => rfl | ⟨1, _⟩ => rfl)
theorem lidx_v50 (p : Fin 100000) (q k : Fin 128) : lidx_main_v50 (ix2 p q) k = ix2 p k :=
  funext fun a => Fin.ext (by match a with | ⟨0, _⟩ => rfl | ⟨1, _⟩ => rfl)
theorem ridx_v50 (p : Fin 100000) (q k : Fin 128) : ridx_main_v50 (ix2 p q) k = ix2 k q :=
  funext fun a => Fin.ext (by match a with | ⟨0, _⟩ => rfl | ⟨1, _⟩ => rfl)
theorem lidx_v51 (p : Fin 100000) (q k : Fin 128) : lidx_main_v51 (ix2 p q) k = ix2 p k :=
  funext fun a => Fin.ext (by match a with | ⟨0, _⟩ => rfl | ⟨1, _⟩ => rfl)
theorem ridx_v51 (p : Fin 100000) (q k : Fin 128) : ridx_main_v51 (ix2 p q) k = ix2 k q :=
  funext fun a => Fin.ext (by match a with | ⟨0, _⟩ => rfl | ⟨1, _⟩ => rfl)
theorem idx_v13 (p : Fin 100000) (q : Fin 128) : idx_main_v13 (ix2 p q) = ix2 0 q :=
  funext fun a => Fin.ext (by match a with | ⟨0, _⟩ => rfl | ⟨1, _⟩ => rfl)
theorem idx_v53 (p : Fin 100000) (q : Fin 128) : idx_main_v53 (ix2 p q) = ix2 0 q :=
  funext fun a => Fin.ext (by match a with | ⟨0, _⟩ => rfl | ⟨1, _⟩ => rfl)

/-! ## The whole result -/

/-- The reference's result is `blend` of the node features, the summed states and the summed gated states. -/
theorem ref_value (x0 x1 x2 : (⟨S100000x128, .f32⟩ : BufTy).Contents (Elt Ideal))
    (x3 x4 : (⟨S1600000, .i32⟩ : BufTy).Contents (Elt Ideal))
    (x5 x6 : (⟨S128x128, .f32⟩ : BufTy).Contents (Elt Ideal)) (x7 : (⟨S1x128, .f32⟩ : BufTy).Contents (Elt Ideal))
    (x8 x9 : (⟨S128x128, .f32⟩ : BufTy).Contents (Elt Ideal)) (x10 : (⟨S1x128, .f32⟩ : BufTy).Contents (Elt Ideal))
    (x11 x12 : (⟨S128x128, .f32⟩ : BufTy).Contents (Elt Ideal)) (x13 : (⟨S1x128, .f32⟩ : BufTy).Contents (Elt Ideal)) :
    val_main_v60 (F := Ideal) x0 x1 x2 x3 x4 x5 x6 x7 x8 x9 x10 x11 x12 x13
      = Cert.TreeGru.blend (R := 100000) x1 (val_main_v9 (F := Ideal) x0 x3 x4)
          (val_main_v49 (F := Ideal) x0 x2 x3 x4 x8 x9 x10) x5 x6 x7 x11 x12 x13 := by
  funext i
  obtain ⟨p, q, rfl⟩ : ∃ (p : Fin 100000) (q : Fin 128), i = ix2 p q := ⟨i 0, i 1, eq_ix2 i⟩
  rw [Cert.TreeGru.blend_apply]
  rw [val_main_v60_apply, val_main_v58_apply, val_main_v59_apply, val_main_v57_apply, val_main_v56_apply,
    val_main_cst_10_apply, val_main_v55_apply, val_main_v54_apply, val_main_v53_apply, val_main_v52_apply,
    val_main_v51_apply, val_main_v50_apply, val_main_v20_apply, val_main_v19_apply, val_main_cst_2_apply,
    val_main_v18_apply, val_main_v17_apply, val_main_cst_1_apply, val_main_v16_apply, val_main_v15_apply,
    val_main_v14_apply, val_main_v13_apply, val_main_v12_apply, val_main_v11_apply, val_main_v10_apply]
  generalize val_main_v9 (F := Ideal) x0 x3 x4 = s
  generalize val_main_v49 (F := Ideal) x0 x2 x3 x4 x8 x9 x10 = g
  simp only [lidx_v10, ridx_v10, lidx_v11, ridx_v11, lidx_v50, ridx_v50, lidx_v51, ridx_v51, idx_v13, idx_v53,
    Ideal.hostDivf_def, Ideal.hostUnary_exp_def, Ideal.hostUnary_tanh_def, Ideal.hostNegf_def, Ideal.negf_def,
    Ideal.addf_def, Ideal.mulf_def, Ideal.subf_def, Ideal.ofBits_def, logistic_spelt]
  rfl

end Cert.ReferenceIdeal.RefValue

end
-- ==== Proof.lean ====
/-
  A tree-structured gated recurrent cell on a graph of 100000 nodes and 1600000 edges, 128 features per node: the
  kernel against its reference, on the extended reals.

  Both programs sum, for every node, the states of its in-neighbours (`s`), and the states of its in-neighbours each
  multiplied entry by entry by a reset gate, and then mix `s` with a candidate state by an update gate. The reset gate
  of an edge is the logistic function of a pre-activation that reads only the edge's SOURCE node: its feature row and
  its state row, each multiplied by a 128×128 weight, plus a bias. The reference evaluates that gate once per edge, on
  the rows it has selected by the edges' source index. The kernel evaluates it once per node, in tiles of 2000 rows
  (its first region), and selects rows of the result by the same index afterwards. Selecting rows commutes with any
  computation that is done row by row, so the two gated arrays agree edge by edge, their sums per destination node
  agree, and the final mix (the kernel's second region, again in tiles of 2000 rows; whole arrays in the reference) is
  the same function of the same operands. The reference spells the logistic function as `1 / (1 + exp (-x))`, which
  is its definition; a change of float format is the identity on the extended reals; a product accumulated into the
  zero tile and the host's product are both the plain sum over the contracted coordinate. No law of arithmetic beyond
  these readings is used, so the precondition (finite inputs) is never opened.

  `Spec` states the two row-wise functions; `Tile` reads the kernels' bodies as those functions on a tile, `Arrays`
  the regions' output arrays as those functions on whole arrays; `HostValues` reads what the host puts in the buffers
  the regions find; `KernelRun` and `KernelValue` give the kernel's run with its result as one function of the
  arguments; `RefEdges` and `RefValue` read the reference's run as the same function.
-/
import proofs.«159449_j30382598652169_2_alg».proof.Defs
import proofs.«159449_j30382598652169_2_alg».proof.Proof.Gen.Kernel
import proofs.«159449_j30382598652169_2_alg».proof.Proof.Gen.Kernel.Frame
import proofs.«159449_j30382598652169_2_alg».proof.Proof.Gen.KernelIdeal
import proofs.«159449_j30382598652169_2_alg».proof.Proof.Gen.KernelIdeal.Frame
import proofs.«159449_j30382598652169_2_alg».proof.Proof.Gen.ReferenceIdeal
import proofs.«159449_j30382598652169_2_alg».proof.Proof.Gen.ReferenceIdeal.Run
import proofs.«159449_j30382598652169_2_alg».proof.Proof.Gen.ReferenceIdeal.Read
import proofs.«159449_j30382598652169_2_alg».proof.Proof.Gen.Pre_finite_inputs
import proofs.«159449_j30382598652169_2_alg».proof.Proof.KernelValue
import proofs.«159449_j30382598652169_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The reference's result, as a function of the arguments, is the kernel's: the same mix of the same features, the
    same summed states, and a sum of gated states that agrees because the reference's per-edge gated rows are the
    selected rows of the kernel's per-node gated array. -/
theorem ref_is_result (x0 x1 x2 : (⟨Cert.ReferenceIdeal.S100000x128, .f32⟩ : BufTy).Contents (Elt Ideal)) (x3 x4 : (⟨Cert.ReferenceIdeal.S1600000, .i32⟩ : BufTy).Contents (Elt Ideal))
    (x5 x6 : (⟨Cert.ReferenceIdeal.S128x128, .f32⟩ : BufTy).Contents (Elt Ideal)) (x7 : (⟨Cert.ReferenceIdeal.S1x128, .f32⟩ : BufTy).Contents (Elt Ideal)) (x8 x9 : (⟨Cert.ReferenceIdeal.S128x128, .f32⟩ : BufTy).Contents (Elt Ideal)) (x10 : (⟨Cert.ReferenceIdeal.S1x128, .f32⟩ : BufTy).Contents (Elt Ideal))
    (x11 x12 : (⟨Cert.ReferenceIdeal.S128x128, .f32⟩ : BufTy).Contents (Elt Ideal)) (x13 : (⟨Cert.ReferenceIdeal.S1x128, .f32⟩ : BufTy).Contents (Elt Ideal)) :
    Cert.ReferenceIdeal.Read.val_main_v60 (F := Ideal) x0 x1 x2 x3 x4 x5 x6 x7 x8 x9 x10 x11 x12 x13
      = Cert.KernelIdeal.KernelValue.result x0 x1 x2 x3 x4 x5 x6 x7 x8 x9 x10 x11 x12 x13 := by
  refine (Cert.ReferenceIdeal.RefValue.ref_value x0 x1 x2 x3 x4 x5 x6 x7 x8 x9 x10 x11 x12 x13).trans ?_
  unfold Cert.KernelIdeal.KernelValue.result
  refine Cert.KernelIdeal.KernelValue.blend_congr rfl ?_ ?_ rfl rfl rfl rfl rfl rfl
  · rfl
  · unfold Cert.ReferenceIdeal.Read.val_main_v49
    rw [Cert.ReferenceIdeal.RefValue.edges_value]
    rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run and end with the same result: the kernel at
    `KernelValue.result` of its arguments, the reference at its composed term, which is that function of the same
    arguments. -/
theorem algebraic : Cert.algebraic_KernelIdeal_ReferenceIdeal := by
  intro m ρ m' ρ' _ hagree
  refine ⟨_, Cert.KernelIdeal.KernelValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v60_eq, h0, h1, h2, h3, h4, h5, h6, h7, h8, h9, h10, h11, h12, h13]
  exact ref_is_result _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
